-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576x128 : Shape := ⟨2, ![1048576, 128]⟩
abbrev S128x64 : Shape := ⟨2, ![128, 64]⟩
abbrev S128 : Shape := ⟨1, ![128]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S1048576x128 : S_.BroadcastsInDim S1048576x128 (![] : Fin 0 → Fin S1048576x128.rank)
  reducesTo_S1048576x128_S_d0_1 : S1048576x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg5 : FVec F S128 .f32) (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_cst_14 : FVec F S_ .f32 := constant S_ .f32 0x00000000#32
  let main_v39 : FVec F S128 .f32 := broadcastInDim S128 ![] bcast_S_S128 main_cst_14
  let main_v40 : IVec S128 1 := cmpf .oge main_arg5 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v38 main_v41
  main_v42

def fn_part1 {F : FTy → Type} [FloatOps F] (main_arg4 : FVec F S128 .f32) (main_arg5 : FVec F S128 .f32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg5 main_arg7 main_v33

def fn {F : FTy → Type} [FloatOps F] (main_arg0 : FVec F S1048576x64 .f32) (main_arg1 : FVec F S1048576x128 .f32) (main_arg2 : FVec F S128x64 .f32) (main_arg3 : FVec F S128 .f32) (main_arg4 : FVec F S128 .f32) (main_arg5 : FVec F S128 .f32) (main_arg6 : FVec F S128 .f32) (main_arg7 : FVec F S128 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S1048576x64 : Shape := ⟨2, ![1048576, 64]⟩
abbrev S1048576x128 : Shape := ⟨2, ![1048576, 128]⟩
abbrev S128x64 : Shape := ⟨2, ![128, 64]⟩
abbrev S128 : Shape := ⟨1, ![128]⟩
abbrev S_ : Shape := ⟨0, ![]⟩
abbrev S64x128 : Shape := ⟨2, ![64, 128]⟩
abbrev S1x128 : Shape := ⟨2, ![1, 128]⟩
abbrev S8192x64 : Shape := ⟨2, ![8192, 64]⟩
abbrev S8192x128 : Shape := ⟨2, ![8192, 128]⟩

abbrev nBuf : Space → Nat
  | .hbm => 22
  | .vmem => 8
  | .smem => 0
  | _ => 0

abbrev bufTy : (tb : Table) → Fin (tcTables nBuf tb) → BufTy
  | .hbm, ⟨0, _⟩ => ⟨S1048576x64, .f32⟩
  | .hbm, ⟨1, _⟩ => ⟨S1048576x128, .f32⟩
  | .hbm, ⟨2, _⟩ => ⟨S128x64, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S64x128, .f32⟩
  | .hbm, ⟨14, _⟩ => ⟨S1x128, .f32⟩
  | .hbm, ⟨15, _⟩ => ⟨S64x128, .f32⟩
  | .hbm, ⟨16, _⟩ => ⟨S64x128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S1048576x128, .f32⟩
  | .local _ .vmem, ⟨0, _⟩ => ⟨S8192x64, .f32⟩
  | .local _ .vmem, ⟨1, _⟩ => ⟨S8192x64, .f32⟩
  | .local _ .vmem, ⟨2, _⟩ => ⟨S8192x128, .f32⟩
  | .local _ .vmem, ⟨3, _⟩ => ⟨S8192x128, .f32⟩
  | .local _ .vmem, ⟨4, _⟩ => ⟨S64x128, .f32⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S128 : S_.BroadcastsInDim S128 (![] : Fin 0 → Fin S128.rank)
  transposes_S128x64_S64x128_1_0 : S128x64.Transposes [1, 0] S64x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  shapeCasts_S128_S1x128 : S128.ShapeCasts S1x128
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S1048576x128.size a
  hwx0_4 : ∀ i : grid0.Coords, EltTy.bits .f32 = 32 ∨ (Rect.block (s := S1048576x128) S8192x128.size (cc0_transform_4 i) (hinb0_4 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576x128 : Shape := ⟨2, ![1048576, 128]⟩
abbrev S128x64 : Shape := ⟨2, ![128, 64]⟩
abbrev S128 : Shape := ⟨1, ![128]⟩
abbrev S1x128 : Shape := ⟨2, ![1, 128]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x128, .f32⟩
  | .hbm, ⟨2, _⟩ => ⟨S128x64, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1048576x128, .f32⟩
  | .hbm, ⟨9, _⟩ => ⟨S1x128, .f32⟩
  | .hbm, ⟨10, _⟩ => ⟨S1048576x128, .f32⟩
  | .hbm, ⟨11, _⟩ => ⟨S1048576x128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S1048576x128, .f32⟩
  | .hbm, ⟨18, _⟩ => ⟨S1048576x128, .f32⟩
  | .hbm, ⟨19, _⟩ => ⟨S1x128, .f32⟩
  | .hbm, ⟨20, _⟩ => ⟨S1048576x128, .f32⟩
  | .hbm, ⟨21, _⟩ => ⟨S1048576x128, .f32⟩
  | .hbm, ⟨22, _⟩ => ⟨S1x128, .f32⟩
  | .hbm, ⟨23, _⟩ => ⟨S1048576x128, .f32⟩
  | .hbm, ⟨24, _⟩ => ⟨S1048576x128, .f32⟩
  | .hbm, ⟨25, _⟩ => ⟨S1x128, .f32⟩
  | .hbm, ⟨26, _⟩ => ⟨S1048576x128, .f32⟩
  | .hbm, ⟨27, _⟩ => ⟨S1048576x128, .f32⟩
  | .hbm, ⟨28, _⟩ => ⟨S1048576x128, .f32⟩
  | .hbm, ⟨29, _⟩ => ⟨S1048576x128, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S128 : S_.BroadcastsInDim S128 (![] : Fin 0 → Fin S128.rank)
  dot_S1048576x64_S128x64_S1048576x128_1_1_0_0_n_n_wf : DotDims.WF S1048576x64 S128x64 S1048576x128 [1] [1] [0] [0] [] []

variable [Facts₀]

def dot_S1048576x64_S128x64_S1048576x128_1_1_0_0_n_n : DotDims S1048576x64 S128x64 S1048576x128 where
  lhsContracting := [1]
  rhsContracting := [1]
  lhsNonContracting := [0]
  rhsNonContracting := [0]
  lhsBatch := []
  rhsBatch := []
  wf := dot_S1048576x64_S128x64_S1048576x128_1_1_0_0_n_n_wf

class Facts : Prop extends Facts₀ where

variable [Facts]
-- ==== Proof.NormFold.lean ====
/-
  Linear layer, then normalisation by running statistics, then `(n + y) · y`: the two arrangements of the normalised
  value `n`, as functions of the eight argument arrays index by index, and the law that joins them.

  Write `inv o = rsqrt (var o + ε)` and `scale o = γ o · inv o`. At row `r`, column `o`:
    folded   :  n = (∑ₖ x r k · (W o k · scale o)) + (scale o · (b o − μ o) + β o)
    unfolded :  n = γ o · ((∑ₖ x r k · W o k + b o) − μ o) · inv o + β o
  The folded form multiplies every weight by `scale o` BEFORE the contraction; the unfolded form contracts first. They
  agree by distributivity of `scale o` over the sum — a law of the reals that fails on the extended reals when the factor
  is infinite (`∞ − ∞`). So the law is proved where every entry is a real and the variance is non-negative: then
  `var o + ε > 0`, `inv o` is a positive real, and the whole computation stays in ℝ.
-/
import Idealize.ShloMosaic.PureOps.Ideal
import Idealize.ShloMosaic.PureOps.Ideal.Laws
import Idealize.ShloMosaic.Lib.ValueIdx

noncomputable section

namespace Cert.NormFold

open Idealize.ShloMosaic Idealize.ShloMosaic.ValueIdx

/-- The coercion ℝ → extended reals commutes with a finite sum. -/
theorem coe_sum {ι : Type} (s : Finset ι) (f : ι → ℝ) : ((∑ k ∈ s, f k : ℝ) : EReal) = ∑ k ∈ s, (f k : EReal) := by
  classical
  refine Finset.induction_on s (by simp) (fun a s ha ih => ?_)
  rw [Finset.sum_insert ha, Finset.sum_insert ha, EReal.coe_add, ih]

/-- The variance offset both programs add under the root: the f32 nearest `1e-5`. -/
abbrev eps : EReal := Ideal.ofBits .f32 0x3727C5AC#32

/-- It is a positive real: `10995116 · 2⁻⁴⁰`. -/
theorem eps_real : ∃ e : ℝ, 0 < e ∧ eps = (e : EReal) := by
  refine ⟨10995116 * (2 : ℝ) ^ (-40 : ℤ), by positivity, ?_⟩
  unfold eps
  simp [Ideal.ofBits, Ideal.ieee, -EReal.coe_mul]

/-- Distributivity, in ℝ: scaling each weight before the contraction, or the contracted sum after it. -/
theorem real_fold (x w : Fin 64 → ℝ) (g v b μ β : ℝ) :
    (∑ k, x k * (w k * (g * v))) + ((g * v) * (b - μ) + β) = g * (((∑ k, x k * w k) + b) - μ) * v + β := by
  have h : ∑ k, x k * (w k * (g * v)) = (∑ k, x k * w k) * (g * v) := by
    rw [Finset.sum_mul]; exact Finset.sum_congr rfl fun k _ => by ring
  rw [h]; ring

/-- The reciprocal root of a non-negative real plus a positive real is a real. -/
theorem rsqrt_real {s e : ℝ} (hs : 0 ≤ s) (he : 0 < e) :
    Ideal.rsqrt ((s : EReal) + (e : EReal)) = (((Real.sqrt (s + e))⁻¹ : ℝ) : EReal) := by
  rw [← EReal.coe_add, Ideal.rsqrt_coe, if_neg (by linarith), if_neg (by linarith)]

/-- The same law on the extended reals, where every operand is a real and the variance is non-negative. -/
theorem ereal_fold (x w : Fin 64 → ℝ) (g s b μ β e : ℝ) (hs : 0 ≤ s) (he : 0 < e) :
    (∑ k, (x k : EReal) * ((w k : EReal) * ((g : EReal) * Ideal.rsqrt ((s : EReal) + (e : EReal)))))
        + (((g : EReal) * Ideal.rsqrt ((s : EReal) + (e : EReal))) * ((b : EReal) - (μ : EReal)) + (β : EReal))
      = (g : EReal) * (((∑ k, (x k : EReal) * (w k : EReal)) + (b : EReal)) - (μ : EReal)) * Ideal.rsqrt ((s : EReal) + (e : EReal)) + (β : EReal) := by
  rw [rsqrt_real hs he]
  simp only [← EReal.coe_mul, ← EReal.coe_sub, ← EReal.coe_add, ← coe_sum]
  exact congrArg _ (real_fold x w g _ b μ β)

/-! ## The two forms, as functions of the argument arrays -/

/-- A matrix, a vector, of extended reals over literal extents. -/
abbrev Mat (a b : Nat) : Type := (⟨2, ![a, b]⟩ : Shape).Idx → EReal
abbrev Row (a : Nat) : Type := (⟨1, ![a]⟩ : Shape).Idx → EReal

/-- `scale o = γ o · rsqrt (var o + ε)`: the normalisation's multiplier of column `o`. -/
def scale (var γ : Row 128) (o : Fin 128) : EReal := γ (ix1 o) * Ideal.rsqrt (var (ix1 o) + eps)

/-- The folded weight of feature `k` into column `o`: `W o k · scale o`. -/
def foldedWeight (W : Mat 128 64) (var γ : Row 128) (k : Fin 64) (o : Fin 128) : EReal := W (ix2 o k) * scale var γ o

/-- The folded bias of column `o`: `scale o · (b o − μ o) + β o`. -/
def foldedBias (b μ var γ β : Row 128) (o : Fin 128) : EReal := scale var γ o * (b (ix1 o) - μ (ix1 o)) + β (ix1 o)

/-- FOLDED: the multiplier goes into every weight before the contraction, and into one bias per column. -/
def folded (x : Mat 1048576 64) (y : Mat 1048576 128) (W : Mat 128 64) (b μ var γ β : Row 128) : Mat 1048576 128 := fun i =>
  ((∑ k : Fin 64, x (ix2 (i 0) k) * foldedWeight W var γ k (i 1)) + foldedBias b μ var γ β (i 1) + y i) * y i

/-- UNFOLDED: contract, add the bias, centre, scale by `γ`, then by the reciprocal root, shift by `β`. -/
def unfolded (x : Mat 1048576 64) (y : Mat 1048576 128) (W : Mat 128 64) (b μ var γ β : Row 128) : Mat 1048576 128 := fun i =>
  ((γ (ix1 (i 1)) * (((∑ k : Fin 64, x (ix2 (i 0) k) * W (ix2 (i 1) k)) + b (ix1 (i 1))) - μ (ix1 (i 1)))
      * Ideal.rsqrt (var (ix1 (i 1)) + eps) + β (ix1 (i 1))) + y i) * y i

/-- The two forms are one function where `x`, `W`, `b`, `μ`, `γ`, `β` hold reals and `var` non-negative reals
    (`y` is added and multiplied last on both sides, so nothing is asked of it). -/
theorem folded_eq_unfolded (x : Mat 1048576 64) (y : Mat 1048576 128) (W : Mat 128 64) (b μ var γ β : Row 128)
    (hx : ∀ i, ∃ r : ℝ, x i = (r : EReal)) (hW : ∀ i, ∃ r : ℝ, W i = (r : EReal))
    (hb : ∀ i, ∃ r : ℝ, b i = (r : EReal)) (hμ : ∀ i, ∃ r : ℝ, μ i = (r : EReal))
    (hvar : ∀ i, ∃ r : ℝ, 0 ≤ r ∧ var i = (r : EReal))
    (hγ : ∀ i, ∃ r : ℝ, γ i = (r : EReal)) (hβ : ∀ i, ∃ r : ℝ, β i = (r : EReal)) :
    folded x y W b μ var γ β = unfolded x y W b μ var γ β := by
  obtain ⟨e, he, hε⟩ := eps_real
  choose xr hxr using hx
  choose Wr hWr using hW
  choose br hbr using hb
  choose μr hμr using hμ
  choose vr hvr using hvar
  choose γr hγr using hγ
  choose βr hβr using hβ
  have hv1 : ∀ i, 0 ≤ vr i := fun i => (hvr i).1
  have hv2 : ∀ i, var i = (vr i : EReal) := fun i => (hvr i).2
  funext i
  unfold folded unfolded foldedWeight foldedBias scale
  rw [hε]
  simp only [hxr, hWr, hbr, hμr, hγr, hβr, hv2]
  exact congrArg (fun n => (n + y i) * y i)
    (ereal_fold (fun k => xr (ix2 (i 0) k)) (fun k => Wr (ix2 (i 1) k)) (γr (ix1 (i 1))) (vr (ix1 (i 1)))
      (br (ix1 (i 1))) (μr (ix1 (i 1))) (βr (ix1 (i 1))) e (hv1 _) he)

end Cert.NormFold

end
-- ==== Proof.Domain.lean ====
/-
  The precondition, read back entry by entry. It says: the absolute value of every entry of every input is below
  `+∞`, and every running variance is at least zero. On the extended reals the first means the entry is neither
  infinity, that is, a real number; the second, for the variance, that this real is non-negative. These are the facts
  under which the normalisation's multiplier is a finite positive real and may be distributed over the contraction.
-/
import proofs.«100035_j19688130085537_2_alg».proof.Proof.Gen.Pre_finite_inputs
import Idealize.ShloMosaic.Lib.ReduceAll
import Idealize.ShloMosaic.Lib.ValueIdx
import Idealize.ShloMosaic.PureOps.Ideal.Laws

noncomputable section

namespace Cert.Domain

open Idealize.ShloMosaic Idealize.ShloMosaic.ValueIdx Cert.Pre_finite_inputs

/-- The rank-0 shape has one index. -/
instance : Subsingleton S_.Idx := ⟨fun _ _ => funext fun d => d.elim0⟩

/-- A conjunction of two one-bit arrays that is 1 at an index has both conjuncts 1 there. -/
theorem both_one {s : Shape} (x y : IVec s 1) (i : s.Idx) (h : andi x y i = 1#1) : x i = 1#1 ∧ y i = 1#1 :=
  IntOp.andi_eq_one.1 h

/-- `|z| < +∞` on the extended reals: `z` is a real. -/
theorem real_of_abs_lt_inf (z : EReal) (h : Ideal.cmp .olt (max z (-z)) (Ideal.ofBits .f32 0x7F800000#32) = 1#1) :
    ∃ r : ℝ, z = (r : EReal) := by
  have htop : Ideal.ofBits .f32 0x7F800000#32 = ⊤ := by simp [Ideal.ofBits, Ideal.ieee]
  rw [htop] at h
  induction z using EReal.rec
  · simp [Ideal.cmp] at h
  · exact ⟨_, rfl⟩
  · simp [Ideal.cmp] at h

/-- `jnp.all(|a| < inf)` holding says every entry of `a` is a real. -/
theorem all_real {S : Shape} {axes : List (Fin S.rank)} (a : FVec Ideal S .f32)
    (hb : S_.BroadcastsInDim S (![] : Fin 0 → Fin S.rank)) (hr : S.ReducesTo axes S_) (h0 : 0 < S_.numel)
    (h : Host.reduce IntOp.andi (cmpf .olt (Host.absf a) (broadcastInDim S ![] hb (constant S_ .f32 0x7F800000#32)))
      (constantI S_ 1 1#1) hr h0 ix0 = 1#1) (i : S.Idx) : ∃ r : ℝ, a i = (r : EReal) :=
  real_of_abs_lt_inf (a i) (Host.reduce_andi_all _ _ hr h0 ix0 h i)

/-- `jnp.all(a >= 0)` holding says every entry of `a` is at least zero. -/
theorem all_nonneg {S : Shape} {axes : List (Fin S.rank)} (a : FVec Ideal S .f32)
    (hb : S_.BroadcastsInDim S (![] : Fin 0 → Fin S.rank)) (hr : S.ReducesTo axes S_) (h0 : 0 < S_.numel)
    (h : Host.reduce IntOp.andi (cmpf .oge a (broadcastInDim S ![] hb (constant S_ .f32 0x00000000#32)))
      (constantI S_ 1 1#1) hr h0 ix0 = 1#1) (i : S.Idx) : (0 : EReal) ≤ a i := by
  have e : Ideal.cmp .oge (a i) (Ideal.ofBits .f32 0x00000000#32) = 1#1 := Host.reduce_andi_all _ _ hr h0 ix0 h i
  rw [Ideal.ofBits_zero_f32] at e
  by_contra hn
  simp [Ideal.cmp, hn] at e

variable [Facts]

/-- What the precondition gives of the seven arrays the normalised value is built from (`y`, the second argument, is
    only added and multiplied at the end, on both sides alike, and nothing is needed of it): every entry a real, and
    the running variance (the sixth argument) non-negative. -/
theorem of_pre (a0 : FVec Ideal S1048576x64 .f32) (a1 : FVec Ideal S1048576x128 .f32) (a2 : FVec Ideal S128x64 .f32)
    (a3 a4 a5 a6 a7 : FVec Ideal S128 .f32)
    (h : fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, 0 ≤ r ∧ a5 i = (r : EReal))
      ∧ (∀ i, ∃ r : ℝ, a6 i = (r : EReal)) ∧ (∀ i, ∃ r : ℝ, a7 i = (r : EReal)) := by
  have h0 := congrFun h ix0
  dsimp only [fn, fn_part1, fn_part2] at h0
  obtain ⟨h1, g5⟩ := both_one _ _ _ h0
  obtain ⟨h2, f7⟩ := both_one _ _ _ h1
  obtain ⟨h3, f6⟩ := both_one _ _ _ h2
  obtain ⟨h4, f5⟩ := both_one _ _ _ h3
  obtain ⟨h5, f4⟩ := both_one _ _ _ h4
  obtain ⟨h6, f3⟩ := both_one _ _ _ h5
  obtain ⟨h7, f2⟩ := both_one _ _ _ h6
  obtain ⟨f0, -⟩ := both_one _ _ _ h7
  refine ⟨all_real a0 _ _ _ f0, all_real a2 _ _ _ f2, all_real a3 _ _ _ f3, all_real a4 _ _ _ f4, fun i => ?_,
    all_real a6 _ _ _ f6, all_real a7 _ _ _ f7⟩
  obtain ⟨r, hr⟩ := all_real a5 _ _ _ f5 i
  have hn := all_nonneg a5 _ _ _ g5 i
  rw [hr] at hn
  exact ⟨r, EReal.coe_nonneg.1 hn, hr⟩

end Cert.Domain

end
-- ==== Proof.Payload.lean ====
/-
  The kernel body's arithmetic at one entry of an output block. The body takes a block of 8192 rows of `x` ([8192, 64]),
  the whole folded weight matrix ([64, 128]), the folded bias as one row ([1, 128]) and the matching block of `y`
  ([8192, 128]); at row `p`, column `q` of the block it stores
      ((∑ₖ x p k · w k q) + s 0 q + y p q) · y p q .
  The matrix product into a zero accumulator is that sum over the 64 features (the roundings to bf16 before it are the
  identity on the extended reals), and the row `s` broadcast down the block is read at column `q`.
-/
import proofs.«100035_j19688130085537_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices at an output index and a contraction index -/

theorem lhs_row (j : S8192x128.Idx) (c : dot_S8192x64_S64x128_S8192x128_1_0_0_1_n_n.contr.Idx) :
    (dot_S8192x64_S64x128_S8192x128_1_0_0_1_n_n.lhsIdx j c 0).val = (j 0).val := by
  unfold DotDims.lhsIdx
  rw [dif_neg (show ¬(0 : Fin S8192x64.rank) ∈ dot_S8192x64_S64x128_S8192x128_1_0_0_1_n_n.lhsBatch by decide),
    dif_pos (show (0 : Fin S8192x64.rank) ∈ dot_S8192x64_S64x128_S8192x128_1_0_0_1_n_n.lhsNonContracting by decide)]
  rfl

theorem lhs_feature (j : S8192x128.Idx) (c : dot_S8192x64_S64x128_S8192x128_1_0_0_1_n_n.contr.Idx) :
    (dot_S8192x64_S64x128_S8192x128_1_0_0_1_n_n.lhsIdx j c 1).val = (c ⟨0, by decide⟩).val :=
  dot_S8192x64_S64x128_S8192x128_1_0_0_1_n_n.lhsIdx_val_of_single rfl j c

theorem rhs_feature (j : S8192x128.Idx) (c : dot_S8192x64_S64x128_S8192x128_1_0_0_1_n_n.contr.Idx) :
    (dot_S8192x64_S64x128_S8192x128_1_0_0_1_n_n.rhsIdx j c 0).val = (c ⟨0, by decide⟩).val :=
  dot_S8192x64_S64x128_S8192x128_1_0_0_1_n_n.rhsIdx_val_of_single rfl j c

theorem rhs_col (j : S8192x128.Idx) (c : dot_S8192x64_S64x128_S8192x128_1_0_0_1_n_n.contr.Idx) :
    (dot_S8192x64_S64x128_S8192x128_1_0_0_1_n_n.rhsIdx j c 1).val = (j 1).val := by
  unfold DotDims.rhsIdx
  rw [dif_neg (show ¬(1 : Fin S64x128.rank) ∈ dot_S8192x64_S64x128_S8192x128_1_0_0_1_n_n.rhsBatch by decide),
    dif_pos (show (1 : Fin S64x128.rank) ∈ dot_S8192x64_S64x128_S8192x128_1_0_0_1_n_n.rhsNonContracting by decide)]
  rfl

/-- The [8192, 64] × [64, 128] product into a zero accumulator, at row `p` and column `q`: the sum over the 64 features. -/
theorem product_at {φ₁ φ₂ : FTy} (a : FVec Ideal S8192x64 φ₁) (w : FVec Ideal S64x128 φ₂) (p : Fin 8192) (q : Fin 128) :
    matmul dot_S8192x64_S64x128_S8192x128_1_0_0_1_n_n none a w (constant (F := Ideal) S8192x128 .f32 0x00000000#32) (ix2 p q)
      = ∑ k : Fin 64, a (ix2 p k) * w (ix2 k q) := by
  simp only [matmul]
  rw [Ideal.matmul_constant_zero_apply,
    ← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 p q)
      ((contrEquiv1 dot_S8192x64_S64x128_S8192x128_1_0_0_1_n_n 64 rfl rfl).symm k) = ix2 p k :=
    funext fun d => Fin.ext (by
      match d with
      | ⟨0, _⟩ => exact lhs_row _ _
      | ⟨1, _⟩ => exact (lhs_feature _ _).trans hk)
  have er : dot_S8192x64_S64x128_S8192x128_1_0_0_1_n_n.rhsIdx (ix2 p q)
      ((contrEquiv1 dot_S8192x64_S64x128_S8192x128_1_0_0_1_n_n 64 rfl rfl).symm k) = ix2 k q :=
    funext fun d => Fin.ext (by
      match d with
      | ⟨0, _⟩ => exact (rhs_feature _ _).trans hk
      | ⟨1, _⟩ => exact rhs_col _ _)
  rw [el, er]

/-- One row broadcast down a block of 8192 rows is read at the column. -/
theorem row_down {α : Type} (s : S1x128.Idx → α) (h : S1x128.Broadcasts S8192x128) (p : Fin 8192) (q : Fin 128) :
    broadcastTo S8192x128 s h (ix2 p q) = s (ix2 (0 : Fin 1) q) :=
  broadcastTo_apply s h (ix2 p q) (ix2 (0 : Fin 1) q) (fun d => match d with
    | ⟨0, _⟩ => by show (0 : Nat) = if (1 : Nat) = 1 then 0 else p.val; rw [if_pos rfl]
    | ⟨1, _⟩ => by show q.val = if (128 : Nat) = 1 then 0 else q.val; rw [if_neg (by decide)])

/-- THE BODY'S STORED VALUE at row `p`, column `q` of the block. -/
theorem payload_at (x : Vec Ideal S8192x64 .f32) (w : Vec Ideal S64x128 .f32) (s : Vec Ideal S1x128 .f32)
    (y : Vec Ideal S8192x128 .f32) (p : Fin 8192) (q : Fin 128) :
    k0_pay1 (F := Ideal) x w s y (ix2 p q)
      = ((∑ k : Fin 64, x (ix2 p k) * w (ix2 k q)) + s (ix2 (0 : Fin 1) q) + y (ix2 p q)) * y (ix2 p q) := by
  unfold k0_pay1
  simp only [shapeCast_self]
  rw [mulf_apply, addf_apply, addf_apply, product_at, row_down]
  rfl

end Cert.KernelIdeal.Body

end
-- ==== Proof.Blocks.lean ====
/-
  From blocks to the whole array. The grid has 128 points; point `t` reads rows `8192·t … 8192·t + 8191` of `x` and of
  `y`, the whole folded weight matrix and the folded bias row, and writes the same rows of the result. So the value the
  body stores at row `p`, column `q` of point `t`'s block is the value, at row `8192·t + p` and column `q`, of ONE
  function of the four arrays the region reads:
      out r q = ((∑ₖ X r k · Wt k q) + s 0 q + Y r q) · Y r q .
  Every row `r` lies in the block of point `r / 8192`, so the 128 blocks cover the result and it ends holding `out`.
-/
import proofs.«100035_j19688130085537_2_alg».proof.Proof.Gen.KernelIdeal.Value
import proofs.«100035_j19688130085537_2_alg».proof.Proof.Payload
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The result as one function of the four arrays the region reads. -/
def out (X : S1048576x64.Idx → EReal) (Y : S1048576x128.Idx → EReal) (Wt : S64x128.Idx → EReal) (s : S1x128.Idx → EReal) :
    S1048576x128.Idx → EReal := fun i =>
  ((∑ k : Fin 64, X (ix2 (i 0) k) * Wt (ix2 k (i 1))) + s (ix2 (0 : Fin 1) (i 1)) + Y i) * Y i

theorem out_at (X : S1048576x64.Idx → EReal) (Y : S1048576x128.Idx → EReal) (Wt : S64x128.Idx → EReal) (s : S1x128.Idx → EReal)
    (r : Fin 1048576) (q : Fin 128) :
    out X Y Wt s (ix2 r q) = ((∑ k : Fin 64, X (ix2 r k) * Wt (ix2 k q)) + s (ix2 (0 : Fin 1) q) + Y (ix2 r q)) * Y (ix2 r q) := rfl

/-- Which block of each array a grid point reads or writes (decided over the 128 points): block row `t` of `x`, `y` and
    the result; the one block of the weights and of the bias row. -/
theorem point_blocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s block is row `8192·t + p` of the array. -/
def row (t : Fin cfg0.N) (p : Fin 8192) : Fin 1048576 :=
  ⟨t.val * 8192 + p.val, by have h := t.isLt; have hN : cfg0.N = 128 := N_0; have hp := p.isLt; omega⟩

/-! ## The input blocks, read where the output's rectangle says -/

theorem read_x (c : Dev nD) (t : Fin cfg0.N) (p : Fin 8192) (k : Fin 64) :
    iblk m c 0 t (ix2 p k) = V m c main_arg0 (ix2 (row t p) k) := by
  obtain ⟨e0, e1, -⟩ := point_blocks t
  show V m c main_arg0 (((cfg0.win 0).blk t).view.emb (ix2 p k)) = V m c main_arg0 (ix2 (row t p) k)
  have h : ((cfg0.win 0).blk t).view.emb (ix2 p k) = ix2 (row t p) k := by
    funext a; apply Fin.ext
    match a with
    | ⟨0, _⟩ => show win0_0.index t (0 : Fin 2) * 8192 + 1 * p.val = t.val * 8192 + p.val; rw [e0]; omega
    | ⟨1, _⟩ => show win0_0.index t (1 : Fin 2) * 64 + 1 * k.val = k.val; rw [e1]; omega
  rw [h]

theorem read_y (c : Dev nD) (t : Fin cfg0.N) (p : Fin 8192) (q : Fin 128) :
    iblk m c 1 t (ix2 p q) = V m c main_arg1 (ix2 (row t p) q) := by
  obtain ⟨-, -, e0, e1, -⟩ := point_blocks t
  show V m c main_arg1 (((cfg0.win 1).blk t).view.emb (ix2 p q)) = V m c main_arg1 (ix2 (row t p) q)
  have h : ((cfg0.win 1).blk t).view.emb (ix2 p q) = ix2 (row t p) q := by
    funext a; apply Fin.ext
    match a with
    | ⟨0, _⟩ => show win0_1.index t (0 : Fin 2) * 8192 + 1 * p.val = t.val * 8192 + p.val; rw [e0]; omega
    | ⟨1, _⟩ => show win0_1.index t (1 : Fin 2) * 128 + 1 * q.val = q.val; rw [e1]; omega
  rw [h]

theorem read_w (c : Dev nD) (t : Fin cfg0.N) (k : Fin 64) (q : Fin 128) :
    iblk m c 2 t (ix2 k q) = V m c main_v7 (ix2 k q) := by
  obtain ⟨-, -, -, -, e0, e1, -⟩ := point_blocks t
  show V m c main_v7 (((cfg0.win 2).blk t).view.emb (ix2 k q)) = V m c main_v7 (ix2 k q)
  have h : ((cfg0.win 2).blk t).view.emb (ix2 k q) = ix2 k q := by
    funext a; apply Fin.ext
    match a with
    | ⟨0, _⟩ => show win0_2.index t (0 : Fin 2) * 64 + 1 * k.val = k.val; rw [e0]; omega
    | ⟨1, _⟩ => show win0_2.index t (1 : Fin 2) * 128 + 1 * q.val = q.val; rw [e1]; omega
  rw [h]

theorem read_s (c : Dev nD) (t : Fin cfg0.N) (q : Fin 128) :
    iblk m c 3 t (ix2 (0 : Fin 1) q) = V m c main_v11 (ix2 (0 : Fin 1) q) := by
  obtain ⟨-, -, -, -, -, -, e0, e1, -⟩ := point_blocks t
  show V m c main_v11 (((cfg0.win 3).blk t).view.emb (ix2 (0 : Fin 1) q)) = V m c main_v11 (ix2 (0 : Fin 1) q)
  have h : ((cfg0.win 3).blk t).view.emb (ix2 (0 : Fin 1) q) = ix2 (0 : Fin 1) q := by
    funext a; apply Fin.ext
    match a with
    | ⟨0, _⟩ => show win0_3.index t (0 : Fin 2) * 1 + 1 * (0 : Fin 1).val = (0 : Fin 1).val; rw [e0]; rfl
    | ⟨1, _⟩ => show win0_3.index t (1 : Fin 2) * 128 + 1 * q.val = q.val; rw [e1]; omega
  rw [h]

/-- Where point `t`'s output block sits in the result. -/
theorem emb_out (t : Fin cfg0.N) (p : Fin 8192) (q : Fin 128) :
    ((cfg0.win 4).blk t).view.emb (ix2 p q) = ix2 (row t p) q := by
  obtain ⟨-, -, -, -, -, -, -, -, e0, e1⟩ := point_blocks t
  funext a; apply Fin.ext
  match a with
  | ⟨0, _⟩ => show win0_4.index t (0 : Fin 2) * 8192 + 1 * p.val = t.val * 8192 + p.val; rw [e0]; omega
  | ⟨1, _⟩ => show win0_4.index t (1 : Fin 2) * 128 + 1 * q.val = q.val; rw [e1]; omega

/-! ## What a point writes back, the cover, the whole array -/

/-- WHAT POINT `t` WRITES BACK is block `t` of `out` of the arrays as the region finds them. -/
theorem flushed_eq (c : Dev nD) (t : Fin cfg0.N) :
    (dats m 0 c).flushed 4 t
      = ((cfg0.win 4).blk t).view.read (Elt Ideal) (out (V m c main_arg0) (V m c main_arg1) (V m c main_v7) (V m c main_v11)) := by
  rw [Value.flushed4]
  unfold out0_4
  rw [View.canon_unit_zero zeros]
  simp only [View.ld_unit_zero (S := S8192x64) zeros, View.ld_unit_zero (S := S64x128) zeros,
    View.ld_unit_zero (S := S1x128) zeros, View.ld_unit_zero (S := S8192x128) zeros]
  funext j
  obtain ⟨p, q, rfl⟩ : ∃ (p : Fin 8192) (q : Fin 128), j = ix2 p q := ⟨j 0, j 1, eq_ix2 j⟩
  show k0_pay1 (iblk m c 0 t) (iblk m c 2 t) (iblk m c 3 t) (iblk m c 1 t) (ix2 p q)
    = out (V m c main_arg0) (V m c main_arg1) (V m c main_v7) (V m c main_v11) (((cfg0.win 4).blk t).view.emb (ix2 p q))
  rw [emb_out t p q, out_at]
  refine (Body.payload_at (iblk m c 0 t) (iblk m c 2 t) (iblk m c 3 t) (iblk m c 1 t) p q).trans ?_
  rw [read_y m c t p q, read_s m c t q]
  refine congrArg (fun z => (z + V m c main_v11 (ix2 (0 : Fin 1) q) + V m c main_arg1 (ix2 (row t p) q)) * V m c main_arg1 (ix2 (row t p) q))
    (Finset.sum_congr rfl fun k _ => ?_)
  rw [read_x m c t p k, read_w m c t k q]

/-- An index of the result is in point `t`'s block iff each coordinate is in the block's range on its axis. -/
theorem mem_blk (t : Fin cfg0.N) (i : S1048576x128.Idx) :
    i ∈ ((cfg0.win 4).blk t).view.set ↔ ∀ a : Fin 2, win0_4.index t a * S8192x128.size a ≤ (i a).val
      ∧ (i a).val < win0_4.index t a * S8192x128.size a + S8192x128.size a := by
  show i ∈ ((View.whole main_v12).slice (win0_4.rect t)).set ↔ _
  rw [View.set_slice_whole, Rect.mem_set_unit]
  exact Iff.rfl

/-- THE COVER: row `r` of the result is in the block of point `r / 8192`. -/
theorem cover (i : S1048576x128.Idx) :
    ∃ t : Fin cfg0.N, (cfg0.win 4).flush t = true ∧ i ∈ ((cfg0.win 4).blk t).view.set := by
  have hi0 : (i 0).val < 1048576 := (i 0).isLt
  have hi1 : (i 1).val < 128 := (i 1).isLt
  have hN : cfg0.N = 128 := N_0
  obtain ⟨t, ht⟩ : ∃ t : Fin cfg0.N, t.val = (i 0).val / 8192 := ⟨⟨(i 0).val / 8192, by omega⟩, rfl⟩
  obtain ⟨-, -, -, -, -, -, -, -, e0, e1⟩ := point_blocks t
  refine ⟨t, flush0_4 t, ?_⟩
  rw [mem_blk]
  intro a
  match a with
  | ⟨0, _⟩ =>
    show win0_4.index t (0 : Fin 2) * 8192 ≤ (i 0).val ∧ (i 0).val < win0_4.index t (0 : Fin 2) * 8192 + 8192
    rw [e0, ht]; omega
  | ⟨1, _⟩ =>
    show win0_4.index t (1 : Fin 2) * 128 ≤ (i 1).val ∧ (i 1).val < win0_4.index t (1 : Fin 2) * 128 + 128
    rw [e1]; omega

/-- THE ARRAY after the run: `out` of the arrays as the region finds them. -/
theorem final (c : Dev nD) :
    (dats m 0 c).arrAt 4 cfg0.N = out (V m c main_arg0) (V m c main_arg1) (V m c main_v7) (V m c main_v11) :=
  (dats m 0 c).arrAt_eq_of_cover 4 _ (fun t _ => flushed_eq m c t) cover

end Cert.KernelIdeal.Blocks

end
-- ==== Proof.Prefix.lean ====
/-
  What the host computes before the kernel is launched: the normalisation folded into the linear layer. With
  `scale o = γ o · rsqrt (var o + ε)` (one number per output column):
    folded weights  Wt k o = W o k · scale o               ([64, 128]: `W` transposed, each column scaled)
    folded bias     s 0 o  = scale o · (b o − μ o) + β o    (one row, [1, 128])
  These are the two small arrays every grid point reads whole.
-/
import proofs.«100035_j19688130085537_2_alg».proof.Proof.Gen.KernelIdeal.Frame
import proofs.«100035_j19688130085537_2_alg».proof.Proof.NormFold
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The multiplier as the host computes it, a length-128 vector: `γ · rsqrt (var + ε)`. -/
def scaleVec (var γ : FVec Ideal S128 .f32) : FVec Ideal S128 .f32 :=
  mulf γ (Host.rsqrt (addf var (broadcastInDim S128 ![] bcast_S_S128 (constant (F := Ideal) S_ .f32 0x3727C5AC#32))))

theorem scaleVec_at (var γ : FVec Ideal S128 .f32) (q : Fin 128) : scaleVec var γ (ix1 q) = Cert.NormFold.scale var γ q := rfl

/-- A length-128 vector laid as one row is read at the column. -/
theorem row_of_vec {α : Type} (z : S128.Idx → α) (h : S128.BroadcastsInDim S1x128 (![1] : Fin 1 → Fin S1x128.rank))
    (u : Fin 1) (q : Fin 128) : broadcastInDim S1x128 ![1] h z (ix2 u q) = z (ix1 q) :=
  broadcastInDim_apply _ h z (ix2 u q) (ix1 q) (fun a => match a with
    | ⟨0, _⟩ => by show q.val = if (128 : Nat) = 1 then 0 else q.val; rw [if_neg (by decide)])

/-- One row repeated down 64 rows is read at the column. -/
theorem rows_of_row {α : Type} (z : S1x128.Idx → α) (h : S1x128.BroadcastsInDim S64x128 (![0, 1] : Fin 2 → Fin S64x128.rank))
    (k : Fin 64) (q : Fin 128) : broadcastInDim S64x128 ![0, 1] h z (ix2 k q) = z (ix2 (0 : Fin 1) q) :=
  broadcastInDim_apply _ h z (ix2 k q) (ix2 (0 : Fin 1) q) (fun a => match a with
    | ⟨0, _⟩ => by show (0 : Nat) = if (1 : Nat) = 1 then 0 else k.val; rw [if_pos rfl]
    | ⟨1, _⟩ => by show q.val = if (128 : Nat) = 1 then 0 else q.val; rw [if_neg (by decide)])

/-- The folded weights, as the operations that wrote them. -/
theorem weights_eq (c : Dev nD) : (V m c main_v7 : S64x128.Idx → EReal)
    = mulf (transpose S64x128 [1, 0] (m ((c : Thread nD τ).loc main_arg2)) transposes_S128x64_S64x128_1_0)
        (broadcastInDim S64x128 ![0, 1] bcast_S1x128_S64x128_0_1 (broadcastInDim S1x128 ![1] bcast_S128_S1x128_1
          (scaleVec (m ((c : Thread nD τ).loc main_arg5)) (m ((c : Thread nD τ).loc main_arg6))))) := by
  dsimp only [V, hostOps0]
  after_results
  rfl

/-- Entry (k, o) of the folded weights. -/
theorem weights_at (c : Dev nD) (k : Fin 64) (q : Fin 128) :
    (V m c main_v7 : S64x128.Idx → EReal) (ix2 k q)
      = Cert.NormFold.foldedWeight (m ((c : Thread nD τ).loc main_arg2)) (m ((c : Thread nD τ).loc main_arg5))
          (m ((c : Thread nD τ).loc main_arg6)) k q := by
  rw [weights_eq m c, mulf_apply, transpose_ix2_apply, rows_of_row, row_of_vec, scaleVec_at]
  rfl

/-- The folded bias row, as the operations that wrote it. -/
theorem bias_eq (c : Dev nD) : (V m c main_v11 : S1x128.Idx → EReal)
    = shapeCast S1x128 (addf (mulf (scaleVec (m ((c : Thread nD τ).loc main_arg5)) (m ((c : Thread nD τ).loc main_arg6)))
        (subf (m ((c : Thread nD τ).loc main_arg3)) (m ((c : Thread nD τ).loc main_arg4)))) (m ((c : Thread nD τ).loc main_arg7)))
        shapeCasts_S128_S1x128 := by
  dsimp only [V, hostOps0]
  after_results
  rfl

/-- Entry o of the folded bias row. -/
theorem bias_at (c : Dev nD) (q : Fin 128) :
    (V m c main_v11 : S1x128.Idx → EReal) (ix2 (0 : Fin 1) q)
      = Cert.NormFold.foldedBias (m ((c : Thread nD τ).loc main_arg3)) (m ((c : Thread nD τ).loc main_arg4))
          (m ((c : Thread nD τ).loc main_arg5)) (m ((c : Thread nD τ).loc main_arg6)) (m ((c : Thread nD τ).loc main_arg7)) q := by
  rw [bias_eq m c, shapeCast_a_1a_apply]
  rfl

end Cert.KernelIdeal.Prefix

end
-- ==== Proof.KernelValue.lean ====
/-
  The kernel program's result, as one function of its eight arguments: the folded form of Proof/NormFold.lean.
  The region leaves `((∑ₖ X r k · Wt k o) + s 0 o + Y r o) · Y r o` in the result (Proof/Blocks.lean), where `X`, `Y`
  are the arguments `x`, `y` untouched and `Wt`, `s` are the folded weights and bias the host computed before the
  launch (Proof/Prefix.lean): `Wt k o = W o k · scale o`, `s 0 o = scale o · (b o − μ o) + β o`.
-/
import proofs.«100035_j19688130085537_2_alg».proof.Proof.Blocks
import proofs.«100035_j19688130085537_2_alg».proof.Proof.Prefix
import proofs.«100035_j19688130085537_2_alg».proof.Proof.NormFold

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The result array after the run is the folded form of the arguments. -/
theorem final_folded (c : Dev nD) :
    (dats m 0 c).arrAt 4 cfg0.N
      = Cert.NormFold.folded (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [Blocks.final m c]
  funext i
  obtain ⟨r, q, rfl⟩ : ∃ (r : Fin 1048576) (q : Fin 128), i = ix2 r q := ⟨i 0, i 1, eq_ix2 i⟩
  rw [Blocks.out_at]
  simp only [Prefix.weights_at m c, Prefix.bias_at m c, V_main_arg0 m c, V_main_arg1 m c]
  rfl

/-- The kernel program's run: every weakly fair execution ends with the result at the folded form of the arguments,
    and the arguments unchanged. -/
theorem run : θ_run defs (onTc (τ := τ) (main (F := Ideal))) ⟨m, fun _ => 0, ρ⟩ fun r => ∀ c : Dev nD,
      r.2.mem ((c : Thread nD τ).loc main_v12)
        = Cert.NormFold.folded (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_folded m c), (h c).2⟩) (Value.run_blocks m ρ)

end Cert.KernelIdeal.KernelValue

end
-- ==== Proof.RefValue.lean ====
/-
  The reference program's result, read index by index: it IS the unfolded form of Proof/NormFold.lean — contract
  `x` with `W` over the 64 input features, add the bias, centre by the running mean, scale by `γ`, then by
  `rsqrt (var + ε)`, shift by `β`, and finally `(n + y) · y`. Every broadcast of a length-128 vector to the
  [1048576, 128] result reads the vector at the column; nothing here needs the inputs to be finite.
-/
import proofs.«100035_j19688130085537_2_alg».proof.Proof.Gen.ReferenceIdeal.Read
import proofs.«100035_j19688130085537_2_alg».proof.Proof.NormFold

noncomputable section

namespace Cert.ReferenceIdeal.RefValue

open Cert.ReferenceIdeal Cert.ReferenceIdeal.Gen Cert.ReferenceIdeal.Read Idealize.ShloMosaic Idealize.ShloMosaic.ValueIdx

/-- The reference's last stage is `NormFold.unfolded` of the eight arguments. -/
theorem result_unfolded (x0 : (⟨S1048576x64, .f32⟩ : BufTy).Contents (Elt Ideal)) (x1 : (⟨S1048576x128, .f32⟩ : BufTy).Contents (Elt Ideal))
    (x2 : (⟨S128x64, .f32⟩ : BufTy).Contents (Elt Ideal)) (x3 x4 x5 x6 x7 : (⟨S128, .f32⟩ : BufTy).Contents (Elt Ideal)) :
    val_main_v20 (F := Ideal) x0 x1 x2 x3 x4 x5 x6 x7 = Cert.NormFold.unfolded x0 x1 x2 x3 x4 x5 x6 x7 := by
  funext i
  -- the contraction's operand indices at result index `i`, contraction index `k`: row `i 0` of `x`, row `i 1` of `W`
  have el : ∀ k : Fin 64, lidx_main_v0 i k = ix2 (i 0) k := fun k =>
    funext fun a => Fin.ext (by match a with | ⟨0, _⟩ => rfl | ⟨1, _⟩ => rfl)
  have er : ∀ k : Fin 64, ridx_main_v0 i k = ix2 (i 1) k := fun k =>
    funext fun a => Fin.ext (by match a with | ⟨0, _⟩ => rfl | ⟨1, _⟩ => rfl)
  -- a length-128 vector broadcast to a row then to the whole result is read at the column `i 1`
  have e3 : idx_main_v1 (idx_main_v2 i) = ix1 (i 1) := funext fun a => Fin.ext (by match a with | ⟨0, _⟩ => rfl)
  have e4 : idx_main_v7 (idx_main_v8 i) = ix1 (i 1) := funext fun a => Fin.ext (by match a with | ⟨0, _⟩ => rfl)
  have e6 : idx_main_v10 (idx_main_v11 i) = ix1 (i 1) := funext fun a => Fin.ext (by match a with | ⟨0, _⟩ => rfl)
  have e5 : idx_main_v13 (idx_main_v14 i) = ix1 (i 1) := funext fun a => Fin.ext (by match a with | ⟨0, _⟩ => rfl)
  have e7 : idx_main_v16 (idx_main_v17 i) = ix1 (i 1) := funext fun a => Fin.ext (by match a with | ⟨0, _⟩ => rfl)
  rw [val_main_v20_apply, val_main_v19_apply, val_main_v18_apply, val_main_v15_apply, val_main_v12_apply,
    val_main_v11_apply, val_main_v10_apply, val_main_v9_apply, val_main_v3_apply, val_main_v0_apply, val_main_v2_apply,
    val_main_v1_apply, val_main_v8_apply, val_main_v7_apply, val_main_v14_apply, val_main_v13_apply, val_main_v6_apply,
    val_main_v5_apply, val_main_v4_apply, val_main_cst_apply, val_main_v17_apply, val_main_v16_apply]
  simp only [el, er, e3, e4, e5, e6, e7, Ideal.mulf_def, Ideal.addf_def, Ideal.subf_def, Ideal.hostUnary_rsqrt_def,
    Ideal.ofBits_def]
  rfl

end Cert.ReferenceIdeal.RefValue

end
-- ==== Proof.lean ====
/-
  Linear layer → normalisation by running statistics → `(n + y) · y`, with the normalisation folded into the weights
  and the bias before the kernel runs, against the same computation written out step by step.

  With `scale o = γ o · rsqrt (var o + ε)`, the kernel's result at row `r`, column `o` is
      ((∑ₖ x r k · (W o k · scale o)) + (scale o · (b o − μ o) + β o) + y r o) · y r o
  (Proof/KernelValue.lean) and the reference's is
      ((γ o · ((∑ₖ x r k · W o k + b o) − μ o) · rsqrt (var o + ε) + β o) + y r o) · y r o
  (Proof/RefValue.lean). They agree by distributivity of `scale o` over the contraction (Proof/NormFold.lean), which
  holds because, under the precondition (Proof/Domain.lean), every entry is a real and the variance is non-negative:
  then `var o + ε > 0` and `scale o` is a finite real. Without the sign condition on the variance the two programs
  differ: at `var o = −ε` the multiplier is `+∞`, the kernel's contraction may add `+∞` and `−∞`, and the reference's
  does not.
-/
import proofs.«100035_j19688130085537_2_alg».proof.Defs
import proofs.«100035_j19688130085537_2_alg».proof.Proof.Gen.Kernel
import proofs.«100035_j19688130085537_2_alg».proof.Proof.Gen.Kernel.Frame
import proofs.«100035_j19688130085537_2_alg».proof.Proof.Gen.KernelIdeal
import proofs.«100035_j19688130085537_2_alg».proof.Proof.Gen.KernelIdeal.Frame
import proofs.«100035_j19688130085537_2_alg».proof.Proof.Gen.KernelIdeal.Value
import proofs.«100035_j19688130085537_2_alg».proof.Proof.Gen.ReferenceIdeal
import proofs.«100035_j19688130085537_2_alg».proof.Proof.Gen.ReferenceIdeal.Run
import proofs.«100035_j19688130085537_2_alg».proof.Proof.Gen.ReferenceIdeal.Read
import proofs.«100035_j19688130085537_2_alg».proof.Proof.Gen.Pre_finite_inputs
import proofs.«100035_j19688130085537_2_alg».proof.Proof.NormFold
import proofs.«100035_j19688130085537_2_alg».proof.Proof.Domain
import proofs.«100035_j19688130085537_2_alg».proof.Proof.KernelValue
import proofs.«100035_j19688130085537_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the folded form of the (agreeing) arguments: the kernel's result is it, the reference's
    is the unfolded form, and under the precondition the two forms are one function. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7, Cert.ReferenceIdeal.Read.val_main_v20_eq, Cert.ReferenceIdeal.RefValue.result_unfolded]
  obtain ⟨hx, hW, hb, hμ, hvar, hγ, hβ⟩ := Cert.Domain.of_pre _ _ _ _ _ _ _ _ (hpre c)
  exact (Cert.NormFold.folded_eq_unfolded _ _ _ _ _ _ _ _ hx hW hb hμ hvar hγ hβ).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
